-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  main_v3
-- ==== Kernel.lean ====
abbrev S16384x128 : Shape := ⟨2, ![16384, 128]⟩
abbrev S131072x128 : Shape := ⟨2, ![131072, 128]⟩
abbrev S512x128 : Shape := ⟨2, ![512, 128]⟩
abbrev S_ : Shape := ⟨0, ![]⟩

abbrev nBuf : Table → Nat
  | .hbm => 2
  | .local .scVector .vmem => 1
  | _ => 0

abbrev bufTy : (tb : Table) → Fin (nBuf tb) → BufTy
  | .hbm, ⟨0, _⟩ => ⟨S16384x128, .f32⟩
  | .hbm, ⟨1, _⟩ => ⟨S131072x128, .f32⟩
  | .local .scVector .vmem, ⟨0, _⟩ => ⟨S512x128, .f32⟩
  | _, _ => ⟨S16384x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_32_r0 : BitVec 32 := 0#32
  ![v2.toNat, 0]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi c0_i32 v2
  let c0_i32_0 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  hcc0_scratch1 : 0 + S_.numel ≤ 2
  hcc0_scoped0 : 1 + S_.numel ≤ 2
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512x128.size a ≤ S16384x128.size a
  k0_off2_inb : ∀ i : grid0.Coords, ∀ (r : Fin 8), ∀ a, (k0_off2 i (BitVec.ofNat 32 (16384 * r.val))) a + S512x128.size a ≤ S131072x128.size a

variable [Facts₀]

abbrev cc0_scratch1 : DmaSems sig S_ := SemArray.consecutive 0 S_ hcc0_scratch1
abbrev cc0_scoped0 : DmaSems sig S_ := SemArray.consecutive 1 S_ hcc0_scoped0

class Facts : Prop extends Facts₀ where

variable [Facts]
-- ==== ReferenceIdeal.lean ====
abbrev S16384x128 : Shape := ⟨2, ![16384, 128]⟩
abbrev S1x16384x1x128 : Shape := ⟨4, ![1, 16384, 1, 128]⟩
abbrev S8x16384x1x128 : Shape := ⟨4, ![8, 16384, 1, 128]⟩
abbrev S131072x128 : Shape := ⟨2, ![131072, 128]⟩

abbrev nBuf : Space → Nat
  | .hbm => 4
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S1x16384x1x128, .f32⟩
  | .hbm, ⟨2, _⟩ => ⟨S8x16384x1x128, .f32⟩
  | .hbm, ⟨3, _⟩ => ⟨S131072x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]

class Facts₀ : Prop where
  shapeCasts_S16384x128_S1x16384x1x128 : S16384x128.ShapeCasts S1x16384x1x128
  bcast_S1x16384x1x128_S8x16384x1x128_0_1_2_3 : S1x16384x1x128.BroadcastsInDim S8x16384x1x128 (![0, 1, 2, 3] : Fin 4 → Fin S8x16384x1x128.rank)
  shapeCasts_S8x16384x1x128_S131072x128 : S8x16384x1x128.ShapeCasts S131072x128

variable [Facts₀]

class Facts : Prop extends Facts₀ where

variable [Facts]
-- ==== Proof.Spec.lean ====
/-
  The specification: the result array has 131072 rows of 128 columns, and row `j` of it is row `j mod 16384` of the
  argument array (eight copies of the argument stacked along the rows).
-/
import Idealize.ShloMosaic.Lib.ValueIdx

namespace Cert.Spec

open Idealize.ShloMosaic

/-- The argument's shape and the result's. -/
abbrev Sx : Shape := ⟨2, ![16384, 128]⟩
abbrev So : Shape := ⟨2, ![131072, 128]⟩

/-- Where entry `i` of the result comes from: the same column, the row taken modulo 16384. -/
def tileIdx (i : So.Idx) : Sx.Idx := fun a => match a with
  | ⟨0, _⟩ => ⟨(i 0).val % 16384, Nat.mod_lt _ (by decide)⟩
  | ⟨1, _⟩ => ⟨(i 1).val, (i 1).isLt⟩

theorem tileIdx_zero (i : So.Idx) : (tileIdx i 0).val = (i 0).val % 16384 := rfl
theorem tileIdx_one (i : So.Idx) : (tileIdx i 1).val = (i 1).val := rfl

/-- The result as one function of the argument array. -/
def tiled {α : Type} (x : Sx.Idx → α) : So.Idx → α := fun i => x (tileIdx i)

end Cert.Spec
-- ==== Proof.TileBits.lean ====
/-
  One vector subcore's task. Subcore `s` of SparseCore `c` is worker `2 s + c`: it copies rows
  `512 (2 s + c) … + 511` of the argument into its own scratch, waits, then starts eight copies of the scratch, copy `r`
  into rows `16384 r + 512 (2 s + c) … + 511` of the result, all on one semaphore, and waits for the eight. Between the
  first start and the last wait nothing touches the scratch or the eight destinations, so after the last wait each
  destination holds the scratch's contents: the argument's rows, which is the specification restricted to those rows.
-/
import proofs.«207814_g936302871110_cont_9to1_m_673_12_alg».proof.Proof.Gen.Kernel
import proofs.«207814_g936302871110_cont_9to1_m_673_12_alg».proof.Proof.Gen.Kernel.Skeleton
import proofs.«207814_g936302871110_cont_9to1_m_673_12_alg».proof.Proof.Spec
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic

set_option Elab.async false

noncomputable section

namespace Cert.Proof.TileBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and one task's pieces of them -/

variable (m : (ℓ : Loc nD τ sig) → Buf (Elt F) ℓ) (ρ : Dev nD → PrngReg)

abbrev xLoc (d : Dev nD) : Loc nD τ sig := (SparseCore.T d).loc main_arg0
abbrev oLoc (d : Dev nD) : Loc nD τ sig := (SparseCore.T d).loc main_v0

abbrev xV : Memref sig .scVector .hbm S16384x128 .f32 := Memref.whole main_arg0_scv
abbrev oV : Memref sig .scVector .hbm S131072x128 .f32 := Memref.whole main_v0_scv
abbrev sB : Memref sig .scVector .vmem S512x128 .f32 := Memref.whole cc0_scratch0

/-- The result array the specification asks for, from the argument's launch contents. -/
def outOf (d : Dev nD) : Buf (Elt F) (oLoc d) :=
  fun i : S131072x128.Idx => (m (xLoc d) : S16384x128.Idx → Elt F .f32) (Cert.Spec.tileIdx i)

section Tile

variable (d : Dev nD) (L : grid0.Coords)

abbrev cV (L : grid0.Coords) : Fin τ.nSC := (L 0).castLE hcore0
abbrev jV (L : grid0.Coords) : Fin τ.nSub := (L 1).castLE hsub0

/-- The task's rows of the argument, and its rows of copy `r` of the result, as the body slices them. -/
abbrev xRect (L : grid0.Coords) : Rect S16384x128 := Rect.unit (s := S16384x128) (k0_off1 L) S512x128.size (k0_off1_inb L)
abbrev oRect (L : grid0.Coords) (r : Fin 8) : Rect S131072x128 :=
  Rect.unit (s := S131072x128) (k0_off2 L (BitVec.ofNat 32 (16384 * r.val))) S512x128.size (k0_off2_inb L r)
abbrev xSl (L : grid0.Coords) : Memref sig .scVector .hbm S512x128 .f32 := (xV).slice (xRect L) (fun _ => rfl)
abbrev oSl (L : grid0.Coords) (r : Fin 8) : Memref sig .scVector .hbm S512x128 .f32 := (oV).slice (oRect L r) (fun _ => rfl)

abbrev xSet (L : grid0.Coords) : Finset S16384x128.Idx := (xSl L).view.set
abbrev oSet (L : grid0.Coords) (r : Fin 8) : Finset S131072x128.Idx := (oSl L r).view.set

/-- The task's piece of the argument at its launch contents; its piece `r` of the result at contents `f`. -/
abbrev xPiece (L : grid0.Coords) : sProp 𝕄 := xLoc d ↦[xSet L]{fullShare} m (xLoc d)
abbrev oPiece (L : grid0.Coords) (r : Fin 8) (f : Buf (Elt F) (oLoc d)) : sProp 𝕄 := oLoc d ↦[oSet L r]{fullShare} f

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch1.sem)

theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch1.sem : SemLoc sig).isScoped .scVector = true; decide⟩⟩)]

theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-- The pieces as the task's memrefs address them — the rows of a slice, at the slice's own location — are pieces of the
    device's arrays: a subcore names the device's HBM arrays, and its slice's elements are the block's rows. -/
theorem pts_x (f : Buf (Elt F) (xLoc d)) :
    ((xSl L).view.loc (V d (cV L) (jV L)) ↦[(xSl L).view.set]{fullShare} f : sProp 𝕄) = xLoc d ↦[xSet L]{fullShare} f := rfl
theorem pts_o (r : Fin 8) (f : Buf (Elt F) (oLoc d)) :
    ((oSl L r).view.loc (V d (cV L) (jV L)) ↦[(oSl L r).view.set]{fullShare} f : sProp 𝕄) = oLoc d ↦[oSet L r]{fullShare} f := rfl
theorem pts_s (f : Buf (Elt F) ((V d (cV L) (jV L)).loc cc0_scratch0)) :
    ((sB : Memref sig .scVector .vmem S512x128 .f32).view.loc (V d (cV L) (jV L)) ↦[(sB : Memref sig .scVector .vmem S512x128 .f32).view.set]{fullShare} f : sProp 𝕄)
      = (V d (cV L) (jV L)).loc cc0_scratch0 ↦{fullShare} f := by
  simp only [Memref.view_whole, View.set_whole]

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

variable [FloatOps F]

/-! ## The body in two stretches -/

/-- The first stretch: the task's rows of the argument into the scratch, and the wait for them. -/
def progHead (L : grid0.Coords) : Prog (TpuEff nD τ sig (Elt F) Λ₀ (.scVector ((L 0).castLE hcore0) ((L 1).castLE hsub0))) PUnit := do
  Prog.lift (.enqueueDma (xSl L) (.here sB) (.dma cc0_scoped0.sem) (View.wordExact_bits rfl) (Memref.isWhole_whole _).wordExact ⟨Or.inl rfl, trivial⟩)
  Prog.lift (.waitDma2 cc0_scoped0.sem (xSl L) sB (View.wordExact_bits rfl) (Memref.isWhole_whole _).wordExact)

/-- The second stretch: the scratch into the eight destinations, all on one semaphore, then the eight waits. -/
def progBatch (L : grid0.Coords) : Prog (TpuEff nD τ sig (Elt F) Λ₀ (.scVector ((L 0).castLE hcore0) ((L 1).castLE hsub0))) PUnit := do
  Prog.lift (.enqueueDma sB (.here (oSl L 0)) (.dma cc0_scratch1.sem) (Memref.isWhole_whole _).wordExact (View.wordExact_bits rfl) ⟨Or.inl rfl, trivial⟩)
  Prog.lift (.enqueueDma sB (.here (oSl L 1)) (.dma cc0_scratch1.sem) (Memref.isWhole_whole _).wordExact (View.wordExact_bits rfl) ⟨Or.inl rfl, trivial⟩)
  Prog.lift (.enqueueDma sB (.here (oSl L 2)) (.dma cc0_scratch1.sem) (Memref.isWhole_whole _).wordExact (View.wordExact_bits rfl) ⟨Or.inl rfl, trivial⟩)
  Prog.lift (.enqueueDma sB (.here (oSl L 3)) (.dma cc0_scratch1.sem) (Memref.isWhole_whole _).wordExact (View.wordExact_bits rfl) ⟨Or.inl rfl, trivial⟩)
  Prog.lift (.enqueueDma sB (.here (oSl L 4)) (.dma cc0_scratch1.sem) (Memref.isWhole_whole _).wordExact (View.wordExact_bits rfl) ⟨Or.inl rfl, trivial⟩)
  Prog.lift (.enqueueDma sB (.here (oSl L 5)) (.dma cc0_scratch1.sem) (Memref.isWhole_whole _).wordExact (View.wordExact_bits rfl) ⟨Or.inl rfl, trivial⟩)
  Prog.lift (.enqueueDma sB (.here (oSl L 6)) (.dma cc0_scratch1.sem) (Memref.isWhole_whole _).wordExact (View.wordExact_bits rfl) ⟨Or.inl rfl, trivial⟩)
  Prog.lift (.enqueueDma sB (.here (oSl L 7)) (.dma cc0_scratch1.sem) (Memref.isWhole_whole _).wordExact (View.wordExact_bits rfl) ⟨Or.inl rfl, trivial⟩)
  Prog.lift (.waitDma2 cc0_scratch1.sem sB (oSl L 0) (Memref.isWhole_whole _).wordExact (View.wordExact_bits rfl))
  Prog.lift (.waitDma2 cc0_scratch1.sem sB (oSl L 1) (Memref.isWhole_whole _).wordExact (View.wordExact_bits rfl))
  Prog.lift (.waitDma2 cc0_scratch1.sem sB (oSl L 2) (Memref.isWhole_whole _).wordExact (View.wordExact_bits rfl))
  Prog.lift (.waitDma2 cc0_scratch1.sem sB (oSl L 3) (Memref.isWhole_whole _).wordExact (View.wordExact_bits rfl))
  Prog.lift (.waitDma2 cc0_scratch1.sem sB (oSl L 4) (Memref.isWhole_whole _).wordExact (View.wordExact_bits rfl))
  Prog.lift (.waitDma2 cc0_scratch1.sem sB (oSl L 5) (Memref.isWhole_whole _).wordExact (View.wordExact_bits rfl))
  Prog.lift (.waitDma2 cc0_scratch1.sem sB (oSl L 6) (Memref.isWhole_whole _).wordExact (View.wordExact_bits rfl))
  Prog.lift (.waitDma2 cc0_scratch1.sem sB (oSl L 7) (Memref.isWhole_whole _).wordExact (View.wordExact_bits rfl))
  pure ⟨⟩

set_option maxRecDepth 65536 in
/-- The printed body is the two stretches, one after the other. -/
theorem body_eq :
    cc0__tile_kernel (F := F) L xV (Memref.isWhole_whole _) oV (Memref.isWhole_whole _) sB (Memref.isWhole_whole _) cc0_scratch1 cc0_scoped0
      = (progHead (F := F) L >>= fun _ => progBatch (F := F) L) := rfl

/-! ## What a landed destination holds -/

/-- After copy `r` has landed, entry `i` of its destination rows holds the scratch's entry at the same place inside the
    block; the scratch holds the task's rows of the argument; and the row of the result, `16384 r + 1024 s + 512 c + j`,
    taken modulo 16384 is the row `1024 s + 512 c + j` of the argument. -/
theorem landed_eq (r : Fin 8) (f0 : Buf (Elt F) (oLoc d)) (f1 : Buf (Elt F) ((V d (cV L) (jV L)).loc cc0_scratch0))
    (hf1 : (sB : Memref sig .scVector .vmem S512x128 .f32).view.read (Elt F) f1 = (xSl L).view.read (Elt F) (m (xLoc d))) :
    ∀ i ∈ oSet L r,
      ((oSl L r).view.writes (Elt F) f0 [⟨Rect.whole S512x128, ReadAs.same.apply ((sB : Memref sig .scVector .vmem S512x128 .f32).view.read (Elt F) f1)⟩]
        : Buf (Elt F) (oLoc d)) i = outOf m d i := by
  intro i hi
  obtain ⟨x, -, rfl⟩ := Finset.mem_map.mp hi
  have h := congrFun (View.read_writes_whole (oSl L r).view f0 (ReadAs.same.apply ((sB : Memref sig .scVector .vmem S512x128 .f32).view.read (Elt F) f1))) x
  rw [View.read_apply] at h
  refine (cast_eq _ _).symm.trans (h.trans ?_)
  show (sB : Memref sig .scVector .vmem S512x128 .f32).view.read (Elt F) f1 x = _
  rw [hf1, View.read_apply]
  refine (cast_eq _ _).trans ?_
  unfold outOf
  refine congrArg (m (xLoc d)) ?_
  have hL0 : (L 0).val < 2 := (L 0).isLt
  have hL1 : (L 1).val < 16 := (L 1).isLt
  have hx0 : (x 0).val < 512 := (x 0).isLt
  have hr : r.val < 8 := r.isLt
  funext a
  apply Fin.ext
  match a with
  | ⟨0, _⟩ =>
    show (k0_off1 L) 0 + 1 * (x 0).val = ((k0_off2 L (BitVec.ofNat 32 (16384 * r.val))) 0 + 1 * (x 0).val) % 16384
    rw [k0_off1_eq, k0_off2_eq]
    show 1024 * (L 1).val + 512 * (L 0).val + 1 * (x 0).val = (16384 * r.val + 1024 * (L 1).val + 512 * (L 0).val + 1 * (x 0).val) % 16384
    omega
  | ⟨1, _⟩ =>
    show (k0_off1 L) 1 + 1 * (x 1).val = (k0_off2 L (BitVec.ofNat 32 (16384 * r.val))) 1 + 1 * (x 1).val
    rw [k0_off1_eq, k0_off2_eq]
    rfl

/-! ## The two stretches, run -/

/-- What the task holds between the two stretches: everything it was handed, the scratch now at the task's rows of the
    argument, both semaphores at zero again, the first wait recorded. -/
def mid (O : CellTallies nD τ sig (HIx 1)) (W : Waits sig (HIx 1)) : sProp 𝕄 :=
  iprop(levAts (K (F := F)).L (K (F := F)).lev
    ∗ xPiece m d L ∗ (bigSep Finset.univ fun r : Fin 8 => oPiece d L r (m (oLoc d)))
    ∗ (∃ f1, ⌜(sB : Memref sig .scVector .vmem S512x128 .f32).view.read (Elt F) f1 = (xSl L).view.read (Elt F) (m (xLoc d))⌝
        ∗ (V d (cV L) (jV L)).loc cc0_scratch0 ↦{fullShare} f1)
    ∗ (bigSep ((ownRefs (τ := τ) (.scVector (cV L) (jV L))).erase ((Proc.scVector (cV L) (jV L)).devRef cc0_scratch0))
        fun b => iprop(∃ f, ((d, b) : Loc nD τ sig) ↦{fullShare} f))
    ∗ semVal (cAcell d (cV L) (jV L)) 0 ∗ semVal (cBcell d (cV L) (jV L)) 0
    ∗ (bigSep (((ownCells (V d (cV L) (jV L))).erase (cAcell d (cV L) (jV L))).erase (cBcell d (cV L) (jV L))) fun g => semVal g 0)
    ∗ owes (V d (cV L) (jV L)) O (insert (SemLoc.dma cc0_scoped0.sem, (none : HIx 1)) W))

set_option maxRecDepth 65536 in
/-- The first stretch. -/
theorem head_run [∀ e, Nonempty (Elt F e)] (hF : (K (F := F)).Facts) (O : CellTallies nD τ sig (HIx 1)) (W : Waits sig (HIx 1)) (hO : ∀ g, O g none = 0) :
    iprop(levAts (K (F := F)).L (K (F := F)).lev ∗ emp
        ∗ (xPiece m d L ∗ bigSep Finset.univ fun r : Fin 8 => oPiece d L r (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (progHead (F := F) L) fun _ => mid m d L O W := by
  unfold progHead mid
  rw [(K (F := F)).scopedBufs_V hF d (cV L) (jV L), SparseCore.Cfg.scopedSems0_V (Val := Elt F) d (cV L) (jV L), ownSems0_V, ownBufs_V]
  iintro ⟨#Hlv, -, ⟨Hx, Hos⟩, ⟨⟨%fs, Hs⟩, Hbufs⟩, ⟨HsemA, HsemB, Hsems⟩, HO⟩
  ihave Hmw := ((K (F := F)).mayWaits_none (thr := V d (cV L) (jV L)) hO) $$ Hlv
  ihave Hx' := (Entails.of_eq (pts_x (F := F) d L (m (xLoc d))).symm) $$ Hx
  ihave Hs' := (Entails.of_eq (pts_s (F := F) d L fs).symm) $$ Hs
  sl_exec
  sl_step
  isplitr; · iexact Hlv
  isplitl [Hx']; · iexact Hx'
  isplitl [Hos]; · iexact Hos
  isplitl [Hs']
  · iexists ((sB : Memref sig .scVector .vmem S512x128 .f32).view.writes (Elt F) fs
      [⟨Rect.whole S512x128, ReadAs.same.apply ((xSl L).view.read (Elt F) (m (xLoc d)))⟩])
    isplitr
    · ipureintro; exact View.read_writes_whole _ _ _
    · iapply (Entails.of_eq (pts_s (F := F) d L _)); iexact Hs'
  isplitl [Hbufs]; · iexact Hbufs
  isplitl [HsemA]; · iexact HsemA
  isplitl [HsemB]; · iexact HsemB
  isplitl [Hsems]; · iexact Hsems
  iexact HO

/-- A landed destination — its prior contents overwritten, over its whole block, by what the copy read off the scratch —
    is the task's piece of the result at the specification. -/
theorem piece_done (r : Fin 8) (f1 : Buf (Elt F) ((V d (cV L) (jV L)).loc cc0_scratch0))
    (hf1 : (sB : Memref sig .scVector .vmem S512x128 .f32).view.read (Elt F) f1 = (xSl L).view.read (Elt F) (m (xLoc d))) :
    ((oSl L r).view.loc (V d (cV L) (jV L)) ↦[(oSl L r).view.set]{fullShare}
        (oSl L r).view.writes (Elt F) (m (oLoc d)) [⟨Rect.whole S512x128, ReadAs.same.apply ((sB : Memref sig .scVector .vmem S512x128 .f32).view.read (Elt F) f1)⟩] : sProp 𝕄)
      = oLoc d ↦[oSet L r]{fullShare} outOf m d :=
  (pts_o (F := F) d L r _).trans (pointsTo_congr (landed_eq m d L r (m (oLoc d)) f1 hf1))

set_option maxRecDepth 65536 in
/-- The second stretch. -/
theorem batch_run [∀ e, Nonempty (Elt F e)] (O : CellTallies nD τ sig (HIx 1)) (W : Waits sig (HIx 1)) (hO : ∀ g, O g none = 0) :
    mid m d L O W
      ⊢ wp frame (wpE (defs₀ (F := F)) 𝒱₀ (V d (cV L) (jV L)) none) Set.univ (progBatch (F := F) L)
          fun _ => iprop((xPiece m d L ∗ bigSep Finset.univ fun r : Fin 8 => oPiece d L r (outOf m d))
            ∗ ownBufs (V d (cV L) (jV L)) ∗ ownSems0 (V d (cV L) (jV L))
            ∗ ∃ W', ⌜∀ p ∈ W', p ∈ W ∨ p.2 = none⌝ ∗ owes (V d (cV L) (jV L)) O W') := by
  unfold progBatch mid
  rw [ownSems0_V, ownBufs_V, bigSep_fin8, bigSep_fin8]
  iintro ⟨#Hlv, Hx, ⟨Ho0, Ho1, Ho2, Ho3, Ho4, Ho5, Ho6, Ho7⟩, ⟨%f1, %hf1, Hs⟩, Hbufs, HsemA, HsemB, Hsems, HO⟩
  ihave Hmw := ((K (F := F)).mayWaits_none (thr := V d (cV L) (jV L)) hO) $$ Hlv
  ihave Ho0' := (Entails.of_eq (pts_o (F := F) d L 0 (m (oLoc d))).symm) $$ Ho0
  ihave Ho1' := (Entails.of_eq (pts_o (F := F) d L 1 (m (oLoc d))).symm) $$ Ho1
  ihave Ho2' := (Entails.of_eq (pts_o (F := F) d L 2 (m (oLoc d))).symm) $$ Ho2
  ihave Ho3' := (Entails.of_eq (pts_o (F := F) d L 3 (m (oLoc d))).symm) $$ Ho3
  ihave Ho4' := (Entails.of_eq (pts_o (F := F) d L 4 (m (oLoc d))).symm) $$ Ho4
  ihave Ho5' := (Entails.of_eq (pts_o (F := F) d L 5 (m (oLoc d))).symm) $$ Ho5
  ihave Ho6' := (Entails.of_eq (pts_o (F := F) d L 6 (m (oLoc d))).symm) $$ Ho6
  ihave Ho7' := (Entails.of_eq (pts_o (F := F) d L 7 (m (oLoc d))).symm) $$ Ho7
  ihave Hs' := (Entails.of_eq (pts_s (F := F) d L f1).symm) $$ Hs
  have hplan : Transfers.BatchOf (V d (cV L) (jV L)) (SemLoc.dma (sig := sig) cc0_scratch1.sem) 8 (windows := true) := trivial
  sl_exec
  sl_step
  isplitl [Hx Ho0' Ho1' Ho2' Ho3' Ho4' Ho5' Ho6' Ho7']
  · isplitl [Hx]; · iexact Hx
    isplitl [Ho0']; · iapply (Entails.of_eq (piece_done (F := F) m d L 0 f1 hf1)); iexact Ho0'
    isplitl [Ho1']; · iapply (Entails.of_eq (piece_done (F := F) m d L 1 f1 hf1)); iexact Ho1'
    isplitl [Ho2']; · iapply (Entails.of_eq (piece_done (F := F) m d L 2 f1 hf1)); iexact Ho2'
    isplitl [Ho3']; · iapply (Entails.of_eq (piece_done (F := F) m d L 3 f1 hf1)); iexact Ho3'
    isplitl [Ho4']; · iapply (Entails.of_eq (piece_done (F := F) m d L 4 f1 hf1)); iexact Ho4'
    isplitl [Ho5']; · iapply (Entails.of_eq (piece_done (F := F) m d L 5 f1 hf1)); iexact Ho5'
    isplitl [Ho6']; · iapply (Entails.of_eq (piece_done (F := F) m d L 6 f1 hf1)); iexact Ho6'
    iapply (Entails.of_eq (piece_done (F := F) m d L 7 f1 hf1)); iexact Ho7'
  isplitl [Hs' Hbufs]
  · isplitl [Hs']
    · iexists f1; iapply (Entails.of_eq (pts_s (F := F) d L f1)); iexact Hs'
    · iexact Hbufs
  isplitl [HsemA HsemB Hsems]
  · isplitl [HsemA]; · iexact HsemA
    isplitl [HsemB]; · iexact HsemB
    iexact Hsems
  iexists (insert (SemLoc.dma cc0_scratch1.sem, (none : HIx 1)) (insert (SemLoc.dma cc0_scratch1.sem, (none : HIx 1)) (insert (SemLoc.dma cc0_scratch1.sem, (none : HIx 1)) (insert (SemLoc.dma cc0_scratch1.sem, (none : HIx 1)) (insert (SemLoc.dma cc0_scratch1.sem, (none : HIx 1)) (insert (SemLoc.dma cc0_scratch1.sem, (none : HIx 1)) (insert (SemLoc.dma cc0_scratch1.sem, (none : HIx 1)) (insert (SemLoc.dma cc0_scratch1.sem, (none : HIx 1)) (insert (SemLoc.dma cc0_scoped0.sem, (none : HIx 1)) W))))))))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp
  · iexact HO

/-- The task on vector subcore `(L 0, L 1)` of device `d`: the two stretches in turn. -/
theorem tile_body [∀ e, Nonempty (Elt F e)] (hF : (K (F := F)).Facts) (O : CellTallies nD τ sig (HIx 1)) (W : Waits sig (HIx 1)) (hO : ∀ g, O g none = 0) :
    iprop(levAts (K (F := F)).L (K (F := F)).lev ∗ emp
        ∗ (xPiece m d L ∗ bigSep Finset.univ fun r : Fin 8 => oPiece d L r (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__tile_kernel L xV (Memref.isWhole_whole _) oV (Memref.isWhole_whole _) sB (Memref.isWhole_whole _) cc0_scratch1 cc0_scoped0)
          fun _ => iprop((xPiece m d L ∗ bigSep Finset.univ fun r : Fin 8 => oPiece d L r (outOf m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [body_eq, wp_bind]
  refine (head_run m d L hF O W hO).trans (wp_mono frame _ _ fun _ => (batch_run m d L O W hO).trans (wp_mono frame _ _ fun _ => ?_))
  rw [(K (F := F)).scopedBufs_V hF d (cV L) (jV L), SparseCore.Cfg.scopedSems0_V (Val := Elt F) d (cV L) (jV L)]

end Tile

end Cert.Proof.TileBits

end
-- ==== Proof.PartBits.lean ====
/-
  The tasks' pieces tile the arrays. Worker `2 s + c` holds rows `512 (2 s + c) … + 511` of the argument: 32 blocks of 512
  rows, pairwise disjoint, covering the 16384 rows. Of the result it holds, for each copy `r`, rows
  `16384 r + 512 (2 s + c) … + 511`: 256 blocks of 512 rows covering the 131072 rows. So an array held whole is its
  pieces held separately, SparseCore by SparseCore, subcore by subcore (and copy by copy).
-/
import proofs.«207814_g936302871110_cont_9to1_m_673_12_alg».proof.Proof.TileBits

set_option Elab.async false

noncomputable section

namespace Cert.Proof.TileBits

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (SparseCore.Cfg.HIx 1) (Elt F) ℕ UU ℕ

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem xSet_eq (L : grid0.Coords) : xSet L = (xRect L).set := by
  show ((View.whole (main_arg0_scv : Ref sig .scVector)).slice (xRect L)).set = _
  rw [View.set_slice]; exact Finset.map_refl
theorem oSet_eq (L : grid0.Coords) (r : Fin 8) : oSet L r = (oRect L r).set := by
  show ((View.whole (main_v0_scv : Ref sig .scVector)).slice (oRect L r)).set = _
  rw [View.set_slice]; exact Finset.map_refl

/-- Entry `j` of the argument is the task's iff its row is one of the task's 512. -/
theorem mem_xSet (L : grid0.Coords) (j : S16384x128.Idx) :
    j ∈ xSet L ↔ 1024 * (L 1).val + 512 * (L 0).val ≤ (j 0).val ∧ (j 0).val < 1024 * (L 1).val + 512 * (L 0).val + 512 := by
  rw [xSet_eq, Rect.mem_set_unit, k0_off1_eq]
  constructor
  · intro h; exact h 0
  · intro h a
    match a with
    | ⟨0, _⟩ => exact h
    | ⟨1, _⟩ => exact ⟨Nat.zero_le _, by have h128 : (j 1).val < 128 := (j 1).isLt; show (j 1).val < 0 + 128; omega⟩

/-- Entry `j` of the result is in the task's copy `r` iff its row is one of that copy's 512. -/
theorem mem_oSet (L : grid0.Coords) (r : Fin 8) (j : S131072x128.Idx) :
    j ∈ oSet L r ↔ 16384 * r.val + 1024 * (L 1).val + 512 * (L 0).val ≤ (j 0).val
      ∧ (j 0).val < 16384 * r.val + 1024 * (L 1).val + 512 * (L 0).val + 512 := by
  rw [oSet_eq, Rect.mem_set_unit, k0_off2_eq]
  constructor
  · intro h; exact h 0
  · intro h a
    match a with
    | ⟨0, _⟩ => exact h
    | ⟨1, _⟩ => exact ⟨Nat.zero_le _, by have h128 : (j 1).val < 128 := (j 1).isLt; show (j 1).val < 0 + 128; omega⟩

abbrev xSetP (p : Fin 2 × Fin 16) : Finset S16384x128.Idx := xSet (coordsV p.1 p.2)
abbrev oSetP (p : Fin 2 × Fin 16 × Fin 8) : Finset S131072x128.Idx := oSet (coordsV p.1 p.2.1) p.2.2

theorem xSetP_disjoint : ∀ p ∈ (Finset.univ : Finset (Fin 2 × Fin 16)), ∀ p' ∈ (Finset.univ : Finset (Fin 2 × Fin 16)), p ≠ p' →
    Disjoint (xSetP p) (xSetP p') := by
  intro p _ p' _ hne
  refine Finset.disjoint_left.mpr fun j h1 h2 => hne ?_
  have a1 := (mem_xSet _ j).mp h1
  have a2 := (mem_xSet _ j).mp h2
  have b1 : (p.1 : Fin 2).val < 2 := p.1.isLt
  have b2 : (p'.1 : Fin 2).val < 2 := p'.1.isLt
  have e1 : (coordsV p.1 p.2 0).val = p.1.val := rfl
  have e2 : (coordsV p.1 p.2 1).val = p.2.val := rfl
  have e3 : (coordsV p'.1 p'.2 0).val = p'.1.val := rfl
  have e4 : (coordsV p'.1 p'.2 1).val = p'.2.val := rfl
  rw [e1, e2] at a1; rw [e3, e4] at a2
  exact Prod.ext (Fin.ext (by omega)) (Fin.ext (by omega))

theorem xSetP_cover : (Finset.univ : Finset (Fin 2 × Fin 16)).biUnion xSetP = Finset.univ := by
  ext j
  simp only [Finset.mem_biUnion, Finset.mem_univ, true_and, iff_true]
  have hj : (j 0).val < 16384 := (j 0).isLt
  refine ⟨(⟨(j 0).val % 1024 / 512, by omega⟩, ⟨(j 0).val / 1024, by omega⟩), (mem_xSet _ j).mpr ?_⟩
  show 1024 * ((j 0).val / 1024) + 512 * ((j 0).val % 1024 / 512) ≤ (j 0).val
    ∧ (j 0).val < 1024 * ((j 0).val / 1024) + 512 * ((j 0).val % 1024 / 512) + 512
  omega

theorem oSetP_disjoint : ∀ p ∈ (Finset.univ : Finset (Fin 2 × Fin 16 × Fin 8)), ∀ p' ∈ (Finset.univ : Finset (Fin 2 × Fin 16 × Fin 8)), p ≠ p' →
    Disjoint (oSetP p) (oSetP p') := by
  intro p _ p' _ hne
  refine Finset.disjoint_left.mpr fun j h1 h2 => hne ?_
  have a1 := (mem_oSet _ _ j).mp h1
  have a2 := (mem_oSet _ _ j).mp h2
  have b1 : (p.1 : Fin 2).val < 2 := p.1.isLt
  have b2 : (p'.1 : Fin 2).val < 2 := p'.1.isLt
  have b3 : (p.2.1 : Fin 16).val < 16 := p.2.1.isLt
  have b4 : (p'.2.1 : Fin 16).val < 16 := p'.2.1.isLt
  have e1 : (coordsV p.1 p.2.1 0).val = p.1.val := rfl
  have e2 : (coordsV p.1 p.2.1 1).val = p.2.1.val := rfl
  have e3 : (coordsV p'.1 p'.2.1 0).val = p'.1.val := rfl
  have e4 : (coordsV p'.1 p'.2.1 1).val = p'.2.1.val := rfl
  rw [e1, e2] at a1; rw [e3, e4] at a2
  exact Prod.ext (Fin.ext (by omega)) (Prod.ext (Fin.ext (by omega)) (Fin.ext (by omega)))

theorem oSetP_cover : (Finset.univ : Finset (Fin 2 × Fin 16 × Fin 8)).biUnion oSetP = Finset.univ := by
  ext j
  simp only [Finset.mem_biUnion, Finset.mem_univ, true_and, iff_true]
  have hj : (j 0).val < 131072 := (j 0).isLt
  refine ⟨(⟨(j 0).val % 1024 / 512, by omega⟩, ⟨(j 0).val % 16384 / 1024, by omega⟩, ⟨(j 0).val / 16384, by omega⟩), (mem_oSet _ _ j).mpr ?_⟩
  show 16384 * ((j 0).val / 16384) + 1024 * ((j 0).val % 16384 / 1024) + 512 * ((j 0).val % 1024 / 512) ≤ (j 0).val
    ∧ (j 0).val < 16384 * ((j 0).val / 16384) + 1024 * ((j 0).val % 16384 / 1024) + 512 * ((j 0).val % 1024 / 512) + 512
  omega

/-- The argument held whole is its 32 pieces. -/
theorem x_split (d : Dev nD) (f : Buf (Elt F) (xLoc d)) :
    (xLoc d ↦{fullShare} f : sProp 𝕄)
      = bigSep Finset.univ fun c : Fin 2 => bigSep Finset.univ fun i : Fin 16 => xLoc d ↦[xSet (coordsV c i)]{fullShare} f := by
  rw [← bigSep_univ_prod (fun p : Fin 2 × Fin 16 => (xLoc d ↦[xSetP p]{fullShare} f : sProp 𝕄)),
    ← pointsTo_biUnion Finset.univ (ℓ := xLoc d) xSetP xSetP_disjoint, xSetP_cover]; try rfl

/-- The result held whole is its 256 pieces. -/
theorem o_split (d : Dev nD) (f : Buf (Elt F) (oLoc d)) :
    (oLoc d ↦{fullShare} f : sProp 𝕄)
      = bigSep Finset.univ fun c : Fin 2 => bigSep Finset.univ fun i : Fin 16 => bigSep Finset.univ fun r : Fin 8 =>
          oLoc d ↦[oSet (coordsV c i) r]{fullShare} f := by
  rw [show (bigSep Finset.univ fun c : Fin 2 => bigSep Finset.univ fun i : Fin 16 => bigSep Finset.univ fun r : Fin 8 =>
          (oLoc d ↦[oSet (coordsV c i) r]{fullShare} f : sProp 𝕄))
        = bigSep Finset.univ (fun p : Fin 2 × Fin 16 × Fin 8 => (oLoc d ↦[oSetP p]{fullShare} f : sProp 𝕄)) by
      rw [bigSep_univ_prod]
      exact bigSep_congr fun c _ => (bigSep_univ_prod (fun b : Fin 16 × Fin 8 => (oLoc d ↦[oSetP (c, b)]{fullShare} f : sProp 𝕄))).symm,
    ← pointsTo_biUnion Finset.univ (ℓ := oLoc d) oSetP oSetP_disjoint, oSetP_cover]; try rfl

end Cert.Proof.TileBits

end
-- ==== Proof.LaunchBits.lean ====
/-
  The launch. The one SparseCore call hands each SparseCore the pieces of its sixteen tasks — for task `(c, s)` the
  rows `512 (2 s + c) …` of the argument and the eight blocks of 512 rows of the result that copy them — and takes them
  back with the result's pieces at the specification. The TensorCore holds both arrays whole, cuts them into the 32 and
  256 pieces for the call, and joins what comes back: the argument unchanged, the result the specification's array.
-/
import proofs.«207814_g936302871110_cont_9to1_m_673_12_alg».proof.Proof.PartBits

set_option Elab.async false

noncomputable section

namespace Cert.Proof.TileBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What the handshakes carry -/

/-- A task's pieces as it receives them, and as it hands them back. -/
def taskGo (d : Dev nD) (L : grid0.Coords) : sProp 𝕄 :=
  iprop(xPiece m d L ∗ bigSep Finset.univ fun r : Fin 8 => oPiece d L r (m (oLoc d)))
def taskTd (d : Dev nD) (L : grid0.Coords) : sProp 𝕄 :=
  iprop(xPiece m d L ∗ bigSep Finset.univ fun r : Fin 8 => oPiece d L r (outOf m d))

/-- The call hands SparseCore `c` its sixteen tasks' pieces, each task its own; nothing of the launch's is consumed. -/
def P : (K (F := F)).Pay (nD := nD) (Val := Elt F) (Name := ℕ) (U := UU) where
  st := fun q d c => match q with | 0 => bigSep Finset.univ fun i : Fin 16 => taskGo m d (coordsV ⟨c.val, c.isLt⟩ i)
  dn := fun q d c => match q with | 0 => bigSep Finset.univ fun i : Fin 16 => taskTd m d (coordsV ⟨c.val, c.isLt⟩ i)
  go := fun q d c i => match q with | 0 => taskGo m d (coordsV ⟨c.val, c.isLt⟩ ⟨i.val, i.isLt⟩)
  td := fun q d c i => match q with | 0 => taskTd m d (coordsV ⟨c.val, c.isLt⟩ ⟨i.val, i.isLt⟩)
  x := fun _ _ => iprop(emp)

instance P_storable : (P (F := F) m).IsStorable where
  st q d c := match q with | 0 => by unfold P taskGo; infer_instance
  dn q d c := match q with | 0 => by unfold P taskTd; infer_instance
  go q d c i := match q with | 0 => by unfold P taskGo; infer_instance
  td q d c i := match q with | 0 => by unfold P taskTd; infer_instance

variable [FloatOps F]

/-! ## The launch theorem's obligations -/

theorem defs₀_vector (c : Fin τ.nSC) (s : Fin τ.nSub) :
    defs₀ (F := F) (.scVector c s) 0 ()
      = SparseCore.onTile hcore0 hsub0 (fun c s => cc0__tile_kernel (coordsV c s)
          xV (Memref.isWhole_whole _) oV (Memref.isWhole_whole _) sB (Memref.isWhole_whole _) cc0_scratch1 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [∀ e, Nonempty (Elt F e)] (hF : (K (F := F)).Facts) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

omit [FloatOps F] in
theorem vecSplit : (K (F := F)).VecSplit' (P m) 0 := by
  intro d c
  show (bigSep Finset.univ fun i : Fin 16 => taskGo m d (coordsV ⟨c.val, c.isLt⟩ i)) ⊢ |={Set.univ}=> iprop(
      (bigSep Finset.univ fun i : Fin 16 => taskGo m d (coordsV ⟨c.val, c.isLt⟩ i))
      ∗ ((bigSep Finset.univ fun i : Fin 16 => taskTd m d (coordsV ⟨c.val, c.isLt⟩ i))
          -∗ bigSep Finset.univ fun i : Fin 16 => taskTd m d (coordsV ⟨c.val, c.isLt⟩ i)))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

omit [FloatOps F] in
/-- What the call takes for the two SparseCores is the two arrays whole; -/
theorem st0_eq (d : Dev nD) : (bigSep Finset.univ fun c : Fin ((K (F := F)).nCore 0) => (P m).st 0 d c)
    = iprop((xLoc d ↦{fullShare} m (xLoc d)) ∗ oLoc d ↦{fullShare} m (oLoc d)) := by
  show (bigSep (Finset.univ : Finset (Fin 2)) fun c => bigSep Finset.univ fun i : Fin 16 => taskGo m d (coordsV c i)) = _
  unfold taskGo
  rw [x_split, o_split]
  simp only [bigSep_sep']
omit [FloatOps F] in
/-- and what it hands back, the argument whole as it was and the result whole at the specification. -/
theorem dn0_eq (d : Dev nD) : (bigSep Finset.univ fun c : Fin ((K (F := F)).nCore 0) => (P m).dn 0 d c)
    = iprop((xLoc d ↦{fullShare} m (xLoc d)) ∗ oLoc d ↦{fullShare} outOf m d) := by
  show (bigSep (Finset.univ : Finset (Fin 2)) fun c => bigSep Finset.univ fun i : Fin 16 => taskTd m d (coordsV c i)) = _
  unfold taskTd
  rw [x_split, o_split]
  simp only [bigSep_sep']

/-- What @main leaves the claim. -/
abbrev FIN (d : Dev nD) : sProp 𝕄 := iprop((xLoc d ↦{fullShare} m (xLoc d)) ∗ oLoc d ↦{fullShare} outOf m d)

/-- @main on device `d`'s TensorCore: the one call, from both arrays whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ho⟩, -, -⟩, -⟩
  iapply ((K (F := F)).wp_run (D (F := F)) 𝒱 (EH := EH) (P := P m) κ d 0) $$ [Hst Hx Ho]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  imodintro
  isplitl [Hst]; · iexact Hst
  isplitl [Hx]; · iexact Hx
  iexact Ho

def fq (d : Dev nD) (s' : Phys nD τ sig (Elt F)) : Prop := s'.mem.mem (oLoc d) = outOf m d ∧ s'.mem.mem (xLoc d) = m (xLoc d)

omit [FloatOps F] in
theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := outOf m d)) $$ [HSI Ho]
  · isplitl [HSI] <;> iassumption
  icases H with %h2
  ipureintro; exact ⟨funext fun i => h2 i (Finset.mem_univ i), funext fun i => h1 i (Finset.mem_univ i)⟩

/-! ## The program's run -/

def QC : PUnit × MemSt nD τ sig (Elt F) → Prop :=
  fun r => ∀ c : Dev nD, r.2.mem (oLoc c) = outOf m c ∧ r.2.mem (xLoc c) = m (xLoc c)

/-- Every weakly fair execution of the device's threads terminates, nothing faulting, with the result array at the
    specification of the argument's launch contents and the argument unchanged. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.TileBits

end
-- ==== Proof.TileIdeal.lean ====
/-
  One vector subcore's task. Subcore `s` of SparseCore `c` is worker `2 s + c`: it copies rows
  `512 (2 s + c) … + 511` of the argument into its own scratch, waits, then starts eight copies of the scratch, copy `r`
  into rows `16384 r + 512 (2 s + c) … + 511` of the result, all on one semaphore, and waits for the eight. Between the
  first start and the last wait nothing touches the scratch or the eight destinations, so after the last wait each
  destination holds the scratch's contents: the argument's rows, which is the specification restricted to those rows.
-/
import proofs.«207814_g936302871110_cont_9to1_m_673_12_alg».proof.Proof.Gen.KernelIdeal
import proofs.«207814_g936302871110_cont_9to1_m_673_12_alg».proof.Proof.Gen.KernelIdeal.Skeleton
import proofs.«207814_g936302871110_cont_9to1_m_673_12_alg».proof.Proof.Spec
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic

set_option Elab.async false

noncomputable section

namespace Cert.Proof.TileIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and one task's pieces of them -/

variable (m : (ℓ : Loc nD τ sig) → Buf (Elt F) ℓ) (ρ : Dev nD → PrngReg)

abbrev xLoc (d : Dev nD) : Loc nD τ sig := (SparseCore.T d).loc main_arg0
abbrev oLoc (d : Dev nD) : Loc nD τ sig := (SparseCore.T d).loc main_v0

abbrev xV : Memref sig .scVector .hbm S16384x128 .f32 := Memref.whole main_arg0_scv
abbrev oV : Memref sig .scVector .hbm S131072x128 .f32 := Memref.whole main_v0_scv
abbrev sB : Memref sig .scVector .vmem S512x128 .f32 := Memref.whole cc0_scratch0

/-- The result array the specification asks for, from the argument's launch contents. -/
def outOf (d : Dev nD) : Buf (Elt F) (oLoc d) :=
  fun i : S131072x128.Idx => (m (xLoc d) : S16384x128.Idx → Elt F .f32) (Cert.Spec.tileIdx i)

section Tile

variable (d : Dev nD) (L : grid0.Coords)

abbrev cV (L : grid0.Coords) : Fin τ.nSC := (L 0).castLE hcore0
abbrev jV (L : grid0.Coords) : Fin τ.nSub := (L 1).castLE hsub0

/-- The task's rows of the argument, and its rows of copy `r` of the result, as the body slices them. -/
abbrev xRect (L : grid0.Coords) : Rect S16384x128 := Rect.unit (s := S16384x128) (k0_off1 L) S512x128.size (k0_off1_inb L)
abbrev oRect (L : grid0.Coords) (r : Fin 8) : Rect S131072x128 :=
  Rect.unit (s := S131072x128) (k0_off2 L (BitVec.ofNat 32 (16384 * r.val))) S512x128.size (k0_off2_inb L r)
abbrev xSl (L : grid0.Coords) : Memref sig .scVector .hbm S512x128 .f32 := (xV).slice (xRect L) (fun _ => rfl)
abbrev oSl (L : grid0.Coords) (r : Fin 8) : Memref sig .scVector .hbm S512x128 .f32 := (oV).slice (oRect L r) (fun _ => rfl)

abbrev xSet (L : grid0.Coords) : Finset S16384x128.Idx := (xSl L).view.set
abbrev oSet (L : grid0.Coords) (r : Fin 8) : Finset S131072x128.Idx := (oSl L r).view.set

/-- The task's piece of the argument at its launch contents; its piece `r` of the result at contents `f`. -/
abbrev xPiece (L : grid0.Coords) : sProp 𝕄 := xLoc d ↦[xSet L]{fullShare} m (xLoc d)
abbrev oPiece (L : grid0.Coords) (r : Fin 8) (f : Buf (Elt F) (oLoc d)) : sProp 𝕄 := oLoc d ↦[oSet L r]{fullShare} f

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch1.sem)

theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch1.sem : SemLoc sig).isScoped .scVector = true; decide⟩⟩)]

theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-- The pieces as the task's memrefs address them — the rows of a slice, at the slice's own location — are pieces of the
    device's arrays: a subcore names the device's HBM arrays, and its slice's elements are the block's rows. -/
theorem pts_x (f : Buf (Elt F) (xLoc d)) :
    ((xSl L).view.loc (V d (cV L) (jV L)) ↦[(xSl L).view.set]{fullShare} f : sProp 𝕄) = xLoc d ↦[xSet L]{fullShare} f := rfl
theorem pts_o (r : Fin 8) (f : Buf (Elt F) (oLoc d)) :
    ((oSl L r).view.loc (V d (cV L) (jV L)) ↦[(oSl L r).view.set]{fullShare} f : sProp 𝕄) = oLoc d ↦[oSet L r]{fullShare} f := rfl
theorem pts_s (f : Buf (Elt F) ((V d (cV L) (jV L)).loc cc0_scratch0)) :
    ((sB : Memref sig .scVector .vmem S512x128 .f32).view.loc (V d (cV L) (jV L)) ↦[(sB : Memref sig .scVector .vmem S512x128 .f32).view.set]{fullShare} f : sProp 𝕄)
      = (V d (cV L) (jV L)).loc cc0_scratch0 ↦{fullShare} f := by
  simp only [Memref.view_whole, View.set_whole]

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

variable [FloatOps F]

/-! ## The body in two stretches -/

/-- The first stretch: the task's rows of the argument into the scratch, and the wait for them. -/
def progHead (L : grid0.Coords) : Prog (TpuEff nD τ sig (Elt F) Λ₀ (.scVector ((L 0).castLE hcore0) ((L 1).castLE hsub0))) PUnit := do
  Prog.lift (.enqueueDma (xSl L) (.here sB) (.dma cc0_scoped0.sem) (View.wordExact_bits rfl) (Memref.isWhole_whole _).wordExact ⟨Or.inl rfl, trivial⟩)
  Prog.lift (.waitDma2 cc0_scoped0.sem (xSl L) sB (View.wordExact_bits rfl) (Memref.isWhole_whole _).wordExact)

/-- The second stretch: the scratch into the eight destinations, all on one semaphore, then the eight waits. -/
def progBatch (L : grid0.Coords) : Prog (TpuEff nD τ sig (Elt F) Λ₀ (.scVector ((L 0).castLE hcore0) ((L 1).castLE hsub0))) PUnit := do
  Prog.lift (.enqueueDma sB (.here (oSl L 0)) (.dma cc0_scratch1.sem) (Memref.isWhole_whole _).wordExact (View.wordExact_bits rfl) ⟨Or.inl rfl, trivial⟩)
  Prog.lift (.enqueueDma sB (.here (oSl L 1)) (.dma cc0_scratch1.sem) (Memref.isWhole_whole _).wordExact (View.wordExact_bits rfl) ⟨Or.inl rfl, trivial⟩)
  Prog.lift (.enqueueDma sB (.here (oSl L 2)) (.dma cc0_scratch1.sem) (Memref.isWhole_whole _).wordExact (View.wordExact_bits rfl) ⟨Or.inl rfl, trivial⟩)
  Prog.lift (.enqueueDma sB (.here (oSl L 3)) (.dma cc0_scratch1.sem) (Memref.isWhole_whole _).wordExact (View.wordExact_bits rfl) ⟨Or.inl rfl, trivial⟩)
  Prog.lift (.enqueueDma sB (.here (oSl L 4)) (.dma cc0_scratch1.sem) (Memref.isWhole_whole _).wordExact (View.wordExact_bits rfl) ⟨Or.inl rfl, trivial⟩)
  Prog.lift (.enqueueDma sB (.here (oSl L 5)) (.dma cc0_scratch1.sem) (Memref.isWhole_whole _).wordExact (View.wordExact_bits rfl) ⟨Or.inl rfl, trivial⟩)
  Prog.lift (.enqueueDma sB (.here (oSl L 6)) (.dma cc0_scratch1.sem) (Memref.isWhole_whole _).wordExact (View.wordExact_bits rfl) ⟨Or.inl rfl, trivial⟩)
  Prog.lift (.enqueueDma sB (.here (oSl L 7)) (.dma cc0_scratch1.sem) (Memref.isWhole_whole _).wordExact (View.wordExact_bits rfl) ⟨Or.inl rfl, trivial⟩)
  Prog.lift (.waitDma2 cc0_scratch1.sem sB (oSl L 0) (Memref.isWhole_whole _).wordExact (View.wordExact_bits rfl))
  Prog.lift (.waitDma2 cc0_scratch1.sem sB (oSl L 1) (Memref.isWhole_whole _).wordExact (View.wordExact_bits rfl))
  Prog.lift (.waitDma2 cc0_scratch1.sem sB (oSl L 2) (Memref.isWhole_whole _).wordExact (View.wordExact_bits rfl))
  Prog.lift (.waitDma2 cc0_scratch1.sem sB (oSl L 3) (Memref.isWhole_whole _).wordExact (View.wordExact_bits rfl))
  Prog.lift (.waitDma2 cc0_scratch1.sem sB (oSl L 4) (Memref.isWhole_whole _).wordExact (View.wordExact_bits rfl))
  Prog.lift (.waitDma2 cc0_scratch1.sem sB (oSl L 5) (Memref.isWhole_whole _).wordExact (View.wordExact_bits rfl))
  Prog.lift (.waitDma2 cc0_scratch1.sem sB (oSl L 6) (Memref.isWhole_whole _).wordExact (View.wordExact_bits rfl))
  Prog.lift (.waitDma2 cc0_scratch1.sem sB (oSl L 7) (Memref.isWhole_whole _).wordExact (View.wordExact_bits rfl))
  pure ⟨⟩

set_option maxRecDepth 65536 in
/-- The printed body is the two stretches, one after the other. -/
theorem body_eq :
    cc0__tile_kernel (F := F) L xV (Memref.isWhole_whole _) oV (Memref.isWhole_whole _) sB (Memref.isWhole_whole _) cc0_scratch1 cc0_scoped0
      = (progHead (F := F) L >>= fun _ => progBatch (F := F) L) := rfl

/-! ## What a landed destination holds -/

/-- After copy `r` has landed, entry `i` of its destination rows holds the scratch's entry at the same place inside the
    block; the scratch holds the task's rows of the argument; and the row of the result, `16384 r + 1024 s + 512 c + j`,
    taken modulo 16384 is the row `1024 s + 512 c + j` of the argument. -/
theorem landed_eq (r : Fin 8) (f0 : Buf (Elt F) (oLoc d)) (f1 : Buf (Elt F) ((V d (cV L) (jV L)).loc cc0_scratch0))
    (hf1 : (sB : Memref sig .scVector .vmem S512x128 .f32).view.read (Elt F) f1 = (xSl L).view.read (Elt F) (m (xLoc d))) :
    ∀ i ∈ oSet L r,
      ((oSl L r).view.writes (Elt F) f0 [⟨Rect.whole S512x128, ReadAs.same.apply ((sB : Memref sig .scVector .vmem S512x128 .f32).view.read (Elt F) f1)⟩]
        : Buf (Elt F) (oLoc d)) i = outOf m d i := by
  intro i hi
  obtain ⟨x, -, rfl⟩ := Finset.mem_map.mp hi
  have h := congrFun (View.read_writes_whole (oSl L r).view f0 (ReadAs.same.apply ((sB : Memref sig .scVector .vmem S512x128 .f32).view.read (Elt F) f1))) x
  rw [View.read_apply] at h
  refine (cast_eq _ _).symm.trans (h.trans ?_)
  show (sB : Memref sig .scVector .vmem S512x128 .f32).view.read (Elt F) f1 x = _
  rw [hf1, View.read_apply]
  refine (cast_eq _ _).trans ?_
  unfold outOf
  refine congrArg (m (xLoc d)) ?_
  have hL0 : (L 0).val < 2 := (L 0).isLt
  have hL1 : (L 1).val < 16 := (L 1).isLt
  have hx0 : (x 0).val < 512 := (x 0).isLt
  have hr : r.val < 8 := r.isLt
  funext a
  apply Fin.ext
  match a with
  | ⟨0, _⟩ =>
    show (k0_off1 L) 0 + 1 * (x 0).val = ((k0_off2 L (BitVec.ofNat 32 (16384 * r.val))) 0 + 1 * (x 0).val) % 16384
    rw [k0_off1_eq, k0_off2_eq]
    show 1024 * (L 1).val + 512 * (L 0).val + 1 * (x 0).val = (16384 * r.val + 1024 * (L 1).val + 512 * (L 0).val + 1 * (x 0).val) % 16384
    omega
  | ⟨1, _⟩ =>
    show (k0_off1 L) 1 + 1 * (x 1).val = (k0_off2 L (BitVec.ofNat 32 (16384 * r.val))) 1 + 1 * (x 1).val
    rw [k0_off1_eq, k0_off2_eq]
    rfl

/-! ## The two stretches, run -/

/-- What the task holds between the two stretches: everything it was handed, the scratch now at the task's rows of the
    argument, both semaphores at zero again, the first wait recorded. -/
def mid (O : CellTallies nD τ sig (HIx 1)) (W : Waits sig (HIx 1)) : sProp 𝕄 :=
  iprop(levAts (K (F := F)).L (K (F := F)).lev
    ∗ xPiece m d L ∗ (bigSep Finset.univ fun r : Fin 8 => oPiece d L r (m (oLoc d)))
    ∗ (∃ f1, ⌜(sB : Memref sig .scVector .vmem S512x128 .f32).view.read (Elt F) f1 = (xSl L).view.read (Elt F) (m (xLoc d))⌝
        ∗ (V d (cV L) (jV L)).loc cc0_scratch0 ↦{fullShare} f1)
    ∗ (bigSep ((ownRefs (τ := τ) (.scVector (cV L) (jV L))).erase ((Proc.scVector (cV L) (jV L)).devRef cc0_scratch0))
        fun b => iprop(∃ f, ((d, b) : Loc nD τ sig) ↦{fullShare} f))
    ∗ semVal (cAcell d (cV L) (jV L)) 0 ∗ semVal (cBcell d (cV L) (jV L)) 0
    ∗ (bigSep (((ownCells (V d (cV L) (jV L))).erase (cAcell d (cV L) (jV L))).erase (cBcell d (cV L) (jV L))) fun g => semVal g 0)
    ∗ owes (V d (cV L) (jV L)) O (insert (SemLoc.dma cc0_scoped0.sem, (none : HIx 1)) W))

set_option maxRecDepth 65536 in
/-- The first stretch. -/
theorem head_run [∀ e, Nonempty (Elt F e)] (hF : (K (F := F)).Facts) (O : CellTallies nD τ sig (HIx 1)) (W : Waits sig (HIx 1)) (hO : ∀ g, O g none = 0) :
    iprop(levAts (K (F := F)).L (K (F := F)).lev ∗ emp
        ∗ (xPiece m d L ∗ bigSep Finset.univ fun r : Fin 8 => oPiece d L r (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (progHead (F := F) L) fun _ => mid m d L O W := by
  unfold progHead mid
  rw [(K (F := F)).scopedBufs_V hF d (cV L) (jV L), SparseCore.Cfg.scopedSems0_V (Val := Elt F) d (cV L) (jV L), ownSems0_V, ownBufs_V]
  iintro ⟨#Hlv, -, ⟨Hx, Hos⟩, ⟨⟨%fs, Hs⟩, Hbufs⟩, ⟨HsemA, HsemB, Hsems⟩, HO⟩
  ihave Hmw := ((K (F := F)).mayWaits_none (thr := V d (cV L) (jV L)) hO) $$ Hlv
  ihave Hx' := (Entails.of_eq (pts_x (F := F) d L (m (xLoc d))).symm) $$ Hx
  ihave Hs' := (Entails.of_eq (pts_s (F := F) d L fs).symm) $$ Hs
  sl_exec
  sl_step
  isplitr; · iexact Hlv
  isplitl [Hx']; · iexact Hx'
  isplitl [Hos]; · iexact Hos
  isplitl [Hs']
  · iexists ((sB : Memref sig .scVector .vmem S512x128 .f32).view.writes (Elt F) fs
      [⟨Rect.whole S512x128, ReadAs.same.apply ((xSl L).view.read (Elt F) (m (xLoc d)))⟩])
    isplitr
    · ipureintro; exact View.read_writes_whole _ _ _
    · iapply (Entails.of_eq (pts_s (F := F) d L _)); iexact Hs'
  isplitl [Hbufs]; · iexact Hbufs
  isplitl [HsemA]; · iexact HsemA
  isplitl [HsemB]; · iexact HsemB
  isplitl [Hsems]; · iexact Hsems
  iexact HO

/-- A landed destination — its prior contents overwritten, over its whole block, by what the copy read off the scratch —
    is the task's piece of the result at the specification. -/
theorem piece_done (r : Fin 8) (f1 : Buf (Elt F) ((V d (cV L) (jV L)).loc cc0_scratch0))
    (hf1 : (sB : Memref sig .scVector .vmem S512x128 .f32).view.read (Elt F) f1 = (xSl L).view.read (Elt F) (m (xLoc d))) :
    ((oSl L r).view.loc (V d (cV L) (jV L)) ↦[(oSl L r).view.set]{fullShare}
        (oSl L r).view.writes (Elt F) (m (oLoc d)) [⟨Rect.whole S512x128, ReadAs.same.apply ((sB : Memref sig .scVector .vmem S512x128 .f32).view.read (Elt F) f1)⟩] : sProp 𝕄)
      = oLoc d ↦[oSet L r]{fullShare} outOf m d :=
  (pts_o (F := F) d L r _).trans (pointsTo_congr (landed_eq m d L r (m (oLoc d)) f1 hf1))

set_option maxRecDepth 65536 in
/-- The second stretch. -/
theorem batch_run [∀ e, Nonempty (Elt F e)] (O : CellTallies nD τ sig (HIx 1)) (W : Waits sig (HIx 1)) (hO : ∀ g, O g none = 0) :
    mid m d L O W
      ⊢ wp frame (wpE (defs₀ (F := F)) 𝒱₀ (V d (cV L) (jV L)) none) Set.univ (progBatch (F := F) L)
          fun _ => iprop((xPiece m d L ∗ bigSep Finset.univ fun r : Fin 8 => oPiece d L r (outOf m d))
            ∗ ownBufs (V d (cV L) (jV L)) ∗ ownSems0 (V d (cV L) (jV L))
            ∗ ∃ W', ⌜∀ p ∈ W', p ∈ W ∨ p.2 = none⌝ ∗ owes (V d (cV L) (jV L)) O W') := by
  unfold progBatch mid
  rw [ownSems0_V, ownBufs_V, bigSep_fin8, bigSep_fin8]
  iintro ⟨#Hlv, Hx, ⟨Ho0, Ho1, Ho2, Ho3, Ho4, Ho5, Ho6, Ho7⟩, ⟨%f1, %hf1, Hs⟩, Hbufs, HsemA, HsemB, Hsems, HO⟩
  ihave Hmw := ((K (F := F)).mayWaits_none (thr := V d (cV L) (jV L)) hO) $$ Hlv
  ihave Ho0' := (Entails.of_eq (pts_o (F := F) d L 0 (m (oLoc d))).symm) $$ Ho0
  ihave Ho1' := (Entails.of_eq (pts_o (F := F) d L 1 (m (oLoc d))).symm) $$ Ho1
  ihave Ho2' := (Entails.of_eq (pts_o (F := F) d L 2 (m (oLoc d))).symm) $$ Ho2
  ihave Ho3' := (Entails.of_eq (pts_o (F := F) d L 3 (m (oLoc d))).symm) $$ Ho3
  ihave Ho4' := (Entails.of_eq (pts_o (F := F) d L 4 (m (oLoc d))).symm) $$ Ho4
  ihave Ho5' := (Entails.of_eq (pts_o (F := F) d L 5 (m (oLoc d))).symm) $$ Ho5
  ihave Ho6' := (Entails.of_eq (pts_o (F := F) d L 6 (m (oLoc d))).symm) $$ Ho6
  ihave Ho7' := (Entails.of_eq (pts_o (F := F) d L 7 (m (oLoc d))).symm) $$ Ho7
  ihave Hs' := (Entails.of_eq (pts_s (F := F) d L f1).symm) $$ Hs
  have hplan : Transfers.BatchOf (V d (cV L) (jV L)) (SemLoc.dma (sig := sig) cc0_scratch1.sem) 8 (windows := true) := trivial
  sl_exec
  sl_step
  isplitl [Hx Ho0' Ho1' Ho2' Ho3' Ho4' Ho5' Ho6' Ho7']
  · isplitl [Hx]; · iexact Hx
    isplitl [Ho0']; · iapply (Entails.of_eq (piece_done (F := F) m d L 0 f1 hf1)); iexact Ho0'
    isplitl [Ho1']; · iapply (Entails.of_eq (piece_done (F := F) m d L 1 f1 hf1)); iexact Ho1'
    isplitl [Ho2']; · iapply (Entails.of_eq (piece_done (F := F) m d L 2 f1 hf1)); iexact Ho2'
    isplitl [Ho3']; · iapply (Entails.of_eq (piece_done (F := F) m d L 3 f1 hf1)); iexact Ho3'
    isplitl [Ho4']; · iapply (Entails.of_eq (piece_done (F := F) m d L 4 f1 hf1)); iexact Ho4'
    isplitl [Ho5']; · iapply (Entails.of_eq (piece_done (F := F) m d L 5 f1 hf1)); iexact Ho5'
    isplitl [Ho6']; · iapply (Entails.of_eq (piece_done (F := F) m d L 6 f1 hf1)); iexact Ho6'
    iapply (Entails.of_eq (piece_done (F := F) m d L 7 f1 hf1)); iexact Ho7'
  isplitl [Hs' Hbufs]
  · isplitl [Hs']
    · iexists f1; iapply (Entails.of_eq (pts_s (F := F) d L f1)); iexact Hs'
    · iexact Hbufs
  isplitl [HsemA HsemB Hsems]
  · isplitl [HsemA]; · iexact HsemA
    isplitl [HsemB]; · iexact HsemB
    iexact Hsems
  iexists (insert (SemLoc.dma cc0_scratch1.sem, (none : HIx 1)) (insert (SemLoc.dma cc0_scratch1.sem, (none : HIx 1)) (insert (SemLoc.dma cc0_scratch1.sem, (none : HIx 1)) (insert (SemLoc.dma cc0_scratch1.sem, (none : HIx 1)) (insert (SemLoc.dma cc0_scratch1.sem, (none : HIx 1)) (insert (SemLoc.dma cc0_scratch1.sem, (none : HIx 1)) (insert (SemLoc.dma cc0_scratch1.sem, (none : HIx 1)) (insert (SemLoc.dma cc0_scratch1.sem, (none : HIx 1)) (insert (SemLoc.dma cc0_scoped0.sem, (none : HIx 1)) W))))))))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp
  · iexact HO

/-- The task on vector subcore `(L 0, L 1)` of device `d`: the two stretches in turn. -/
theorem tile_body [∀ e, Nonempty (Elt F e)] (hF : (K (F := F)).Facts) (O : CellTallies nD τ sig (HIx 1)) (W : Waits sig (HIx 1)) (hO : ∀ g, O g none = 0) :
    iprop(levAts (K (F := F)).L (K (F := F)).lev ∗ emp
        ∗ (xPiece m d L ∗ bigSep Finset.univ fun r : Fin 8 => oPiece d L r (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__tile_kernel L xV (Memref.isWhole_whole _) oV (Memref.isWhole_whole _) sB (Memref.isWhole_whole _) cc0_scratch1 cc0_scoped0)
          fun _ => iprop((xPiece m d L ∗ bigSep Finset.univ fun r : Fin 8 => oPiece d L r (outOf m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [body_eq, wp_bind]
  refine (head_run m d L hF O W hO).trans (wp_mono frame _ _ fun _ => (batch_run m d L O W hO).trans (wp_mono frame _ _ fun _ => ?_))
  rw [(K (F := F)).scopedBufs_V hF d (cV L) (jV L), SparseCore.Cfg.scopedSems0_V (Val := Elt F) d (cV L) (jV L)]

end Tile

end Cert.Proof.TileIdeal

end
-- ==== Proof.PartIdeal.lean ====
/-
  The tasks' pieces tile the arrays. Worker `2 s + c` holds rows `512 (2 s + c) … + 511` of the argument: 32 blocks of 512
  rows, pairwise disjoint, covering the 16384 rows. Of the result it holds, for each copy `r`, rows
  `16384 r + 512 (2 s + c) … + 511`: 256 blocks of 512 rows covering the 131072 rows. So an array held whole is its
  pieces held separately, SparseCore by SparseCore, subcore by subcore (and copy by copy).
-/
import proofs.«207814_g936302871110_cont_9to1_m_673_12_alg».proof.Proof.TileIdeal

set_option Elab.async false

noncomputable section

namespace Cert.Proof.TileIdeal

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (SparseCore.Cfg.HIx 1) (Elt F) ℕ UU ℕ

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem xSet_eq (L : grid0.Coords) : xSet L = (xRect L).set := by
  show ((View.whole (main_arg0_scv : Ref sig .scVector)).slice (xRect L)).set = _
  rw [View.set_slice]; exact Finset.map_refl
theorem oSet_eq (L : grid0.Coords) (r : Fin 8) : oSet L r = (oRect L r).set := by
  show ((View.whole (main_v0_scv : Ref sig .scVector)).slice (oRect L r)).set = _
  rw [View.set_slice]; exact Finset.map_refl

/-- Entry `j` of the argument is the task's iff its row is one of the task's 512. -/
theorem mem_xSet (L : grid0.Coords) (j : S16384x128.Idx) :
    j ∈ xSet L ↔ 1024 * (L 1).val + 512 * (L 0).val ≤ (j 0).val ∧ (j 0).val < 1024 * (L 1).val + 512 * (L 0).val + 512 := by
  rw [xSet_eq, Rect.mem_set_unit, k0_off1_eq]
  constructor
  · intro h; exact h 0
  · intro h a
    match a with
    | ⟨0, _⟩ => exact h
    | ⟨1, _⟩ => exact ⟨Nat.zero_le _, by have h128 : (j 1).val < 128 := (j 1).isLt; show (j 1).val < 0 + 128; omega⟩

/-- Entry `j` of the result is in the task's copy `r` iff its row is one of that copy's 512. -/
theorem mem_oSet (L : grid0.Coords) (r : Fin 8) (j : S131072x128.Idx) :
    j ∈ oSet L r ↔ 16384 * r.val + 1024 * (L 1).val + 512 * (L 0).val ≤ (j 0).val
      ∧ (j 0).val < 16384 * r.val + 1024 * (L 1).val + 512 * (L 0).val + 512 := by
  rw [oSet_eq, Rect.mem_set_unit, k0_off2_eq]
  constructor
  · intro h; exact h 0
  · intro h a
    match a with
    | ⟨0, _⟩ => exact h
    | ⟨1, _⟩ => exact ⟨Nat.zero_le _, by have h128 : (j 1).val < 128 := (j 1).isLt; show (j 1).val < 0 + 128; omega⟩

abbrev xSetP (p : Fin 2 × Fin 16) : Finset S16384x128.Idx := xSet (coordsV p.1 p.2)
abbrev oSetP (p : Fin 2 × Fin 16 × Fin 8) : Finset S131072x128.Idx := oSet (coordsV p.1 p.2.1) p.2.2

theorem xSetP_disjoint : ∀ p ∈ (Finset.univ : Finset (Fin 2 × Fin 16)), ∀ p' ∈ (Finset.univ : Finset (Fin 2 × Fin 16)), p ≠ p' →
    Disjoint (xSetP p) (xSetP p') := by
  intro p _ p' _ hne
  refine Finset.disjoint_left.mpr fun j h1 h2 => hne ?_
  have a1 := (mem_xSet _ j).mp h1
  have a2 := (mem_xSet _ j).mp h2
  have b1 : (p.1 : Fin 2).val < 2 := p.1.isLt
  have b2 : (p'.1 : Fin 2).val < 2 := p'.1.isLt
  have e1 : (coordsV p.1 p.2 0).val = p.1.val := rfl
  have e2 : (coordsV p.1 p.2 1).val = p.2.val := rfl
  have e3 : (coordsV p'.1 p'.2 0).val = p'.1.val := rfl
  have e4 : (coordsV p'.1 p'.2 1).val = p'.2.val := rfl
  rw [e1, e2] at a1; rw [e3, e4] at a2
  exact Prod.ext (Fin.ext (by omega)) (Fin.ext (by omega))

theorem xSetP_cover : (Finset.univ : Finset (Fin 2 × Fin 16)).biUnion xSetP = Finset.univ := by
  ext j
  simp only [Finset.mem_biUnion, Finset.mem_univ, true_and, iff_true]
  have hj : (j 0).val < 16384 := (j 0).isLt
  refine ⟨(⟨(j 0).val % 1024 / 512, by omega⟩, ⟨(j 0).val / 1024, by omega⟩), (mem_xSet _ j).mpr ?_⟩
  show 1024 * ((j 0).val / 1024) + 512 * ((j 0).val % 1024 / 512) ≤ (j 0).val
    ∧ (j 0).val < 1024 * ((j 0).val / 1024) + 512 * ((j 0).val % 1024 / 512) + 512
  omega

theorem oSetP_disjoint : ∀ p ∈ (Finset.univ : Finset (Fin 2 × Fin 16 × Fin 8)), ∀ p' ∈ (Finset.univ : Finset (Fin 2 × Fin 16 × Fin 8)), p ≠ p' →
    Disjoint (oSetP p) (oSetP p') := by
  intro p _ p' _ hne
  refine Finset.disjoint_left.mpr fun j h1 h2 => hne ?_
  have a1 := (mem_oSet _ _ j).mp h1
  have a2 := (mem_oSet _ _ j).mp h2
  have b1 : (p.1 : Fin 2).val < 2 := p.1.isLt
  have b2 : (p'.1 : Fin 2).val < 2 := p'.1.isLt
  have b3 : (p.2.1 : Fin 16).val < 16 := p.2.1.isLt
  have b4 : (p'.2.1 : Fin 16).val < 16 := p'.2.1.isLt
  have e1 : (coordsV p.1 p.2.1 0).val = p.1.val := rfl
  have e2 : (coordsV p.1 p.2.1 1).val = p.2.1.val := rfl
  have e3 : (coordsV p'.1 p'.2.1 0).val = p'.1.val := rfl
  have e4 : (coordsV p'.1 p'.2.1 1).val = p'.2.1.val := rfl
  rw [e1, e2] at a1; rw [e3, e4] at a2
  exact Prod.ext (Fin.ext (by omega)) (Prod.ext (Fin.ext (by omega)) (Fin.ext (by omega)))

theorem oSetP_cover : (Finset.univ : Finset (Fin 2 × Fin 16 × Fin 8)).biUnion oSetP = Finset.univ := by
  ext j
  simp only [Finset.mem_biUnion, Finset.mem_univ, true_and, iff_true]
  have hj : (j 0).val < 131072 := (j 0).isLt
  refine ⟨(⟨(j 0).val % 1024 / 512, by omega⟩, ⟨(j 0).val % 16384 / 1024, by omega⟩, ⟨(j 0).val / 16384, by omega⟩), (mem_oSet _ _ j).mpr ?_⟩
  show 16384 * ((j 0).val / 16384) + 1024 * ((j 0).val % 16384 / 1024) + 512 * ((j 0).val % 1024 / 512) ≤ (j 0).val
    ∧ (j 0).val < 16384 * ((j 0).val / 16384) + 1024 * ((j 0).val % 16384 / 1024) + 512 * ((j 0).val % 1024 / 512) + 512
  omega

/-- The argument held whole is its 32 pieces. -/
theorem x_split (d : Dev nD) (f : Buf (Elt F) (xLoc d)) :
    (xLoc d ↦{fullShare} f : sProp 𝕄)
      = bigSep Finset.univ fun c : Fin 2 => bigSep Finset.univ fun i : Fin 16 => xLoc d ↦[xSet (coordsV c i)]{fullShare} f := by
  rw [← bigSep_univ_prod (fun p : Fin 2 × Fin 16 => (xLoc d ↦[xSetP p]{fullShare} f : sProp 𝕄)),
    ← pointsTo_biUnion Finset.univ (ℓ := xLoc d) xSetP xSetP_disjoint, xSetP_cover]; try rfl

/-- The result held whole is its 256 pieces. -/
theorem o_split (d : Dev nD) (f : Buf (Elt F) (oLoc d)) :
    (oLoc d ↦{fullShare} f : sProp 𝕄)
      = bigSep Finset.univ fun c : Fin 2 => bigSep Finset.univ fun i : Fin 16 => bigSep Finset.univ fun r : Fin 8 =>
          oLoc d ↦[oSet (coordsV c i) r]{fullShare} f := by
  rw [show (bigSep Finset.univ fun c : Fin 2 => bigSep Finset.univ fun i : Fin 16 => bigSep Finset.univ fun r : Fin 8 =>
          (oLoc d ↦[oSet (coordsV c i) r]{fullShare} f : sProp 𝕄))
        = bigSep Finset.univ (fun p : Fin 2 × Fin 16 × Fin 8 => (oLoc d ↦[oSetP p]{fullShare} f : sProp 𝕄)) by
      rw [bigSep_univ_prod]
      exact bigSep_congr fun c _ => (bigSep_univ_prod (fun b : Fin 16 × Fin 8 => (oLoc d ↦[oSetP (c, b)]{fullShare} f : sProp 𝕄))).symm,
    ← pointsTo_biUnion Finset.univ (ℓ := oLoc d) oSetP oSetP_disjoint, oSetP_cover]; try rfl

end Cert.Proof.TileIdeal

end
-- ==== Proof.LaunchIdeal.lean ====
/-
  The launch. The one SparseCore call hands each SparseCore the pieces of its sixteen tasks — for task `(c, s)` the
  rows `512 (2 s + c) …` of the argument and the eight blocks of 512 rows of the result that copy them — and takes them
  back with the result's pieces at the specification. The TensorCore holds both arrays whole, cuts them into the 32 and
  256 pieces for the call, and joins what comes back: the argument unchanged, the result the specification's array.
-/
import proofs.«207814_g936302871110_cont_9to1_m_673_12_alg».proof.Proof.PartIdeal

set_option Elab.async false

noncomputable section

namespace Cert.Proof.TileIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What the handshakes carry -/

/-- A task's pieces as it receives them, and as it hands them back. -/
def taskGo (d : Dev nD) (L : grid0.Coords) : sProp 𝕄 :=
  iprop(xPiece m d L ∗ bigSep Finset.univ fun r : Fin 8 => oPiece d L r (m (oLoc d)))
def taskTd (d : Dev nD) (L : grid0.Coords) : sProp 𝕄 :=
  iprop(xPiece m d L ∗ bigSep Finset.univ fun r : Fin 8 => oPiece d L r (outOf m d))

/-- The call hands SparseCore `c` its sixteen tasks' pieces, each task its own; nothing of the launch's is consumed. -/
def P : (K (F := F)).Pay (nD := nD) (Val := Elt F) (Name := ℕ) (U := UU) where
  st := fun q d c => match q with | 0 => bigSep Finset.univ fun i : Fin 16 => taskGo m d (coordsV ⟨c.val, c.isLt⟩ i)
  dn := fun q d c => match q with | 0 => bigSep Finset.univ fun i : Fin 16 => taskTd m d (coordsV ⟨c.val, c.isLt⟩ i)
  go := fun q d c i => match q with | 0 => taskGo m d (coordsV ⟨c.val, c.isLt⟩ ⟨i.val, i.isLt⟩)
  td := fun q d c i => match q with | 0 => taskTd m d (coordsV ⟨c.val, c.isLt⟩ ⟨i.val, i.isLt⟩)
  x := fun _ _ => iprop(emp)

instance P_storable : (P (F := F) m).IsStorable where
  st q d c := match q with | 0 => by unfold P taskGo; infer_instance
  dn q d c := match q with | 0 => by unfold P taskTd; infer_instance
  go q d c i := match q with | 0 => by unfold P taskGo; infer_instance
  td q d c i := match q with | 0 => by unfold P taskTd; infer_instance

variable [FloatOps F]

/-! ## The launch theorem's obligations -/

theorem defs₀_vector (c : Fin τ.nSC) (s : Fin τ.nSub) :
    defs₀ (F := F) (.scVector c s) 0 ()
      = SparseCore.onTile hcore0 hsub0 (fun c s => cc0__tile_kernel (coordsV c s)
          xV (Memref.isWhole_whole _) oV (Memref.isWhole_whole _) sB (Memref.isWhole_whole _) cc0_scratch1 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [∀ e, Nonempty (Elt F e)] (hF : (K (F := F)).Facts) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

omit [FloatOps F] in
theorem vecSplit : (K (F := F)).VecSplit' (P m) 0 := by
  intro d c
  show (bigSep Finset.univ fun i : Fin 16 => taskGo m d (coordsV ⟨c.val, c.isLt⟩ i)) ⊢ |={Set.univ}=> iprop(
      (bigSep Finset.univ fun i : Fin 16 => taskGo m d (coordsV ⟨c.val, c.isLt⟩ i))
      ∗ ((bigSep Finset.univ fun i : Fin 16 => taskTd m d (coordsV ⟨c.val, c.isLt⟩ i))
          -∗ bigSep Finset.univ fun i : Fin 16 => taskTd m d (coordsV ⟨c.val, c.isLt⟩ i)))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

omit [FloatOps F] in
/-- What the call takes for the two SparseCores is the two arrays whole; -/
theorem st0_eq (d : Dev nD) : (bigSep Finset.univ fun c : Fin ((K (F := F)).nCore 0) => (P m).st 0 d c)
    = iprop((xLoc d ↦{fullShare} m (xLoc d)) ∗ oLoc d ↦{fullShare} m (oLoc d)) := by
  show (bigSep (Finset.univ : Finset (Fin 2)) fun c => bigSep Finset.univ fun i : Fin 16 => taskGo m d (coordsV c i)) = _
  unfold taskGo
  rw [x_split, o_split]
  simp only [bigSep_sep']
omit [FloatOps F] in
/-- and what it hands back, the argument whole as it was and the result whole at the specification. -/
theorem dn0_eq (d : Dev nD) : (bigSep Finset.univ fun c : Fin ((K (F := F)).nCore 0) => (P m).dn 0 d c)
    = iprop((xLoc d ↦{fullShare} m (xLoc d)) ∗ oLoc d ↦{fullShare} outOf m d) := by
  show (bigSep (Finset.univ : Finset (Fin 2)) fun c => bigSep Finset.univ fun i : Fin 16 => taskTd m d (coordsV c i)) = _
  unfold taskTd
  rw [x_split, o_split]
  simp only [bigSep_sep']

/-- What @main leaves the claim. -/
abbrev FIN (d : Dev nD) : sProp 𝕄 := iprop((xLoc d ↦{fullShare} m (xLoc d)) ∗ oLoc d ↦{fullShare} outOf m d)

/-- @main on device `d`'s TensorCore: the one call, from both arrays whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ho⟩, -, -⟩, -⟩
  iapply ((K (F := F)).wp_run (D (F := F)) 𝒱 (EH := EH) (P := P m) κ d 0) $$ [Hst Hx Ho]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  imodintro
  isplitl [Hst]; · iexact Hst
  isplitl [Hx]; · iexact Hx
  iexact Ho

def fq (d : Dev nD) (s' : Phys nD τ sig (Elt F)) : Prop := s'.mem.mem (oLoc d) = outOf m d ∧ s'.mem.mem (xLoc d) = m (xLoc d)

omit [FloatOps F] in
theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := outOf m d)) $$ [HSI Ho]
  · isplitl [HSI] <;> iassumption
  icases H with %h2
  ipureintro; exact ⟨funext fun i => h2 i (Finset.mem_univ i), funext fun i => h1 i (Finset.mem_univ i)⟩

/-! ## The program's run -/

def QC : PUnit × MemSt nD τ sig (Elt F) → Prop :=
  fun r => ∀ c : Dev nD, r.2.mem (oLoc c) = outOf m c ∧ r.2.mem (xLoc c) = m (xLoc c)

/-- Every weakly fair execution of the device's threads terminates, nothing faulting, with the result array at the
    specification of the argument's launch contents and the argument unchanged. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.TileIdeal

end
-- ==== Proof.RefSide.lean ====
/-
  The reference's side. Its result is a reshape of a broadcast of a reshape of the argument: [16384,128] as
  [1,16384,1,128], repeated along the leading axis to [8,16384,1,128], flattened to [131072,128]. Read at entry
  `(j, k)`: the flat position `128 j + k` splits as copy `j / 16384`, row `j mod 16384`, column `k`; the broadcast
  forgets the copy; so the entry is the argument's entry `(j mod 16384, k)`: the specification.
-/
import proofs.«207814_g936302871110_cont_9to1_m_673_12_alg».proof.Defs
import proofs.«207814_g936302871110_cont_9to1_m_673_12_alg».proof.Proof.Gen.ReferenceIdeal.Run
import proofs.«207814_g936302871110_cont_9to1_m_673_12_alg».proof.Proof.Gen.ReferenceIdeal.Read
import proofs.«207814_g936302871110_cont_9to1_m_673_12_alg».proof.Proof.Spec

noncomputable section

namespace Cert.Proof.RefSide

open Cert.ReferenceIdeal Cert.ReferenceIdeal.Gen Cert.ReferenceIdeal.Read Idealize.ShloMosaic

variable {F : FTy → Type} [FloatOps F]

/-- The composed index of the three stages is the row taken modulo 16384 and the column kept. -/
theorem idx_chain (i : S131072x128.Idx) : idx_main_v0 (idx_main_v1 (idx_main_v2 i)) = Cert.Spec.tileIdx i := by
  have h0 : (i 0).val < 131072 := (i 0).isLt
  have h1 : (i 1).val < 128 := (i 1).isLt
  funext a
  apply Fin.ext
  match a with
  | ⟨0, _⟩ =>
    show (((0 * 16384 + ((i 0).val * 128 + (i 1).val) / 128 % 16384) * 1 + 0) * 128 + ((i 0).val * 128 + (i 1).val) % 128) / 128 = (i 0).val % 16384
    omega
  | ⟨1, _⟩ =>
    show (((0 * 16384 + ((i 0).val * 128 + (i 1).val) / 128 % 16384) * 1 + 0) * 128 + ((i 0).val * 128 + (i 1).val) % 128) % 128 = (i 1).val
    omega

/-- The reference's result is the specification of its argument. -/
theorem ref_is_tiled (x0 : (⟨S16384x128, .f32⟩ : BufTy).Contents (Elt F)) :
    val_main_v2 (F := F) x0 = Cert.Spec.tiled x0 := by
  funext i
  rw [val_main_v2_apply, val_main_v1_apply, val_main_v0_apply, idx_chain]
  rfl

end Cert.Proof.RefSide

end
-- ==== Proof.lean ====
/-
  The kernel cuts the argument's 16384 rows into 32 blocks of 512, one per vector subcore of the two SparseCores
  (subcore `s` of SparseCore `c` takes block `2 s + c`), stages a block in the subcore's scratch and copies it to the
  same block of each of the eight consecutive 16384-row stretches of the result. The reference repeats the argument
  eight times along the rows. Both leave in entry `(j, k)` of the result the argument's entry `(j mod 16384, k)`: no
  arithmetic is done on the entries, so nothing is asked of them (the precondition is not used).

  The kernel's side (Proof/Tile*, Part*, Launch*): one task's body, run once at a symbolic subcore, with the value of each
  landed block carried in its post; the blocks tile the two arrays; the launch over the device's threads. It is written
  once, generic in the float instance, and stated for each of the two printed programs. The reference's side
  (Proof/RefSide): its three layout operations read at an index. Here the five claims are assembled.
-/
import proofs.«207814_g936302871110_cont_9to1_m_673_12_alg».proof.Defs
import proofs.«207814_g936302871110_cont_9to1_m_673_12_alg».proof.Proof.Gen.Kernel
import proofs.«207814_g936302871110_cont_9to1_m_673_12_alg».proof.Proof.Gen.Kernel.Skeleton
import proofs.«207814_g936302871110_cont_9to1_m_673_12_alg».proof.Proof.Gen.KernelIdeal
import proofs.«207814_g936302871110_cont_9to1_m_673_12_alg».proof.Proof.Gen.KernelIdeal.Skeleton
import proofs.«207814_g936302871110_cont_9to1_m_673_12_alg».proof.Proof.Gen.ReferenceIdeal
import proofs.«207814_g936302871110_cont_9to1_m_673_12_alg».proof.Proof.Gen.Pre_finite_inputs
import proofs.«207814_g936302871110_cont_9to1_m_673_12_alg».proof.Proof.Gen.ReferenceIdeal.Run
import proofs.«207814_g936302871110_cont_9to1_m_673_12_alg».proof.Proof.Gen.ReferenceIdeal.Read
import proofs.«207814_g936302871110_cont_9to1_m_673_12_alg».proof.Proof.LaunchBits
import proofs.«207814_g936302871110_cont_9to1_m_673_12_alg».proof.Proof.LaunchIdeal
import proofs.«207814_g936302871110_cont_9to1_m_673_12_alg».proof.Proof.RefSide
import Idealize.ShloMosaic.Adequacy
import Idealize.ShloMosaic.Init

noncomputable section

namespace Cert.Proof

open Idealize.ShloMosaic Idealize.SL.Sem

/-- The word-level kernel runs to the end, faults nowhere, and leaves its argument as it was. -/
theorem frame_p : Cert.frame_Kernel := fun m ρ _ =>
  (θ_run Cert.Kernel.defs _ _).mono (fun _ h c => (h c).2) (Cert.Proof.TileBits.run_main (F := Bits) m ρ)

/-- The same of the idealized kernel. -/
theorem frame_pi : Cert.frame_KernelIdeal := fun m ρ _ =>
  (θ_run Cert.KernelIdeal.defs _ _).mono (fun _ h c => (h c).2) (Cert.Proof.TileIdeal.run_main (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the result at the specification of the (agreeing) argument arrays. -/
theorem algebraic : Cert.algebraic_KernelIdeal_ReferenceIdeal := by
  intro m ρ m' ρ' _ hagree
  refine ⟨fun c => Cert.Proof.TileIdeal.outOf m c, Cert.Proof.TileIdeal.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.Proof.RefSide.ref_is_tiled, hagree c]
  rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
